-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg6 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S256x256 .f32) (main_arg4 : FVec F S256 .f32) (main_arg5 : FVec F S512x256 .f32) (main_arg6 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S256x256 : Shape := ⟨2, ![256, 256]⟩
abbrev S256 : Shape := ⟨1, ![256]⟩
abbrev S512x256 : Shape := ⟨2, ![512, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S128x256 : Shape := ⟨2, ![128, 256]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩

abbrev nBuf : Space → Nat
  | .hbm => 65
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S128x256, .f32⟩
  | .hbm, ⟨28, _⟩ => ⟨S128x256, .f32⟩
  | .hbm, ⟨29, _⟩ => ⟨S256x256, .f32⟩
  | .hbm, ⟨30, _⟩ => ⟨S256x256, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S256x256_S128x256_0_0 : S256x256.Slices ![0, 0] S128x256
  slices_S256x256_S128x256_128_0 : S256x256.Slices ![128, 0] S128x256
  slices_S512x256_S256x256_0_0 : S512x256.Slices ![0, 0] S256x256
  slices_S512x256_S256x256_256_0 : S512x256.Slices ![256, 0] S256x256
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S256x256 : Shape := ⟨2, ![256, 256]⟩
abbrev S256 : Shape := ⟨1, ![256]⟩
abbrev S512x256 : Shape := ⟨2, ![512, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x512 : Shape := ⟨2, ![50000, 512]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x256, .f32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S50000x512, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call2_cst : Ref sig .tc := ⟨.hbm, 70, rfl⟩
abbrev main_call2_v0 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x512_S512x256_S50000x256_1_0_0_1_n_n_wf : DotDims.WF S50000x512 S512x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.RefLayers.lean ====
/-
  The reference's result, folded into named pieces.

  The reference computes, on the host, the in-degree of every node (a scatter-add of ones at the edges' destinations),
  its reciprocal where positive and zero elsewhere (`invDeg`), the mean of the neighbours' features (`agg`: gather the
  source rows, scatter-add them at the destinations, scale by `invDeg`), and a layer (`layer`: the node's own features and
  the neighbours' mean joined side by side, times the weight matrix, plus the bias, rectified).  Its result is two layers,
  the second fed the first one's output and that output's own neighbour mean.  The terms below are the reference's own
  operations, grouped; `res_eq` says the reference's result term is exactly this grouping.
-/
import proofs.«158275_j34333968564342_1_alg».proof.Proof.RefRun

set_option maxRecDepth 8192

noncomputable section

namespace Cert.ReferenceIdeal.Layers

open Cert.ReferenceIdeal Cert.ReferenceIdeal.Gen Idealize.ShloMosaic Idealize.ShloMosaic.TcCoe Idealize.SL.Sem

variable {F : FTy → Type} [FloatOps F]

/-- The edges' source indices as gather start indices: a negative index counts from the end (jax's `h[src]`). -/
def srcIdx (src : (⟨S800000, .i32⟩ : BufTy).Contents (Elt F)) : (⟨S800000x1, .i32⟩ : BufTy).Contents (Elt F) :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- The in-degree of every node: ones scatter-added at the edges' destinations. -/
def deg (dst : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))

/-- `1 / max(deg, 1)` where the in-degree is positive, `0` elsewhere, as a column. -/
def invDeg (dst : (⟨S800000, .i32⟩ : BufTy).Contents (Elt F)) : (⟨S50000x1, .f32⟩ : BufTy).Contents (Elt F) :=
  broadcastInDim S50000x1 ![0] bcast_S50000_S50000x1_0 (select (cmpf (F := F) .ogt (deg dst) (broadcastInDim S50000 ![] bcast_S_S50000 (constant S_ .f32 0x00000000#32))) (Host.divf (broadcastInDim S50000 ![] bcast_S_S50000 (constant S_ .f32 0x3F800000#32)) (maximumf (deg dst) (broadcastInDim S50000 ![] bcast_S_S50000 (constant S_ .f32 0x3F800000#32)))) (broadcastInDim S50000 ![] bcast_S_S50000 (id (constant S_ .f32 0x00000000#32))))

/-- The neighbours' mean of 128-channel features. -/
def agg128 (h : (⟨S50000x128, .f32⟩ : BufTy).Contents (Elt F)) (src dst : (⟨S800000, .i32⟩ : BufTy).Contents (Elt F)) :
    (⟨S50000x128, .f32⟩ : BufTy).Contents (Elt F) :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (srcIdx src))) (broadcastInDim S50000x128 ![0, 1] bcast_S50000x1_S50000x128_0_1 (invDeg dst))

/-- The neighbours' mean of 256-channel features. -/
def agg256 (h : (⟨S50000x256, .f32⟩ : BufTy).Contents (Elt F)) (src dst : (⟨S800000, .i32⟩ : BufTy).Contents (Elt F)) :
    (⟨S50000x256, .f32⟩ : BufTy).Contents (Elt F) :=
  mulf (Host.scatterAdd scatter_S50000x256_S800000x1_S800000x256_1_0_0_1 (broadcastInDim S50000x256 ![] bcast_S_S50000x256 (constant S_ .f32 0x00000000#32)) (broadcastInDim S800000x1 ![0] bcast_S800000_S800000x1_0 dst) (Host.gather gather_S50000x256_S800000x1_S800000x256_1_0_n_n_0_1_1256 h (srcIdx src))) (broadcastInDim S50000x256 ![0, 1] bcast_S50000x1_S50000x256_0_1 (invDeg dst))

/-- The first layer, the reference's way: features and neighbour mean joined, times the weights, plus the bias, rectified. -/
def layer1 (h hn : (⟨S50000x128, .f32⟩ : BufTy).Contents (Elt F)) (W : (⟨S256x256, .f32⟩ : BufTy).Contents (Elt F))
    (b : (⟨S256, .f32⟩ : BufTy).Contents (Elt F)) : (⟨S50000x256, .f32⟩ : BufTy).Contents (Elt F) :=
  maximumf (addf (Host.dotGeneral dot_S50000x256_S256x256_S50000x256_1_0_0_1_n_n none (concatenate S50000x256 1 [⟨S50000x128, h⟩, ⟨S50000x128, hn⟩] concatenates_S50000x128_S50000x128_S50000x256_d1) W) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The second layer, the reference's way. -/
def layer2 (h hn : (⟨S50000x256, .f32⟩ : BufTy).Contents (Elt F)) (W : (⟨S512x256, .f32⟩ : BufTy).Contents (Elt F))
    (b : (⟨S256, .f32⟩ : BufTy).Contents (Elt F)) : (⟨S50000x256, .f32⟩ : BufTy).Contents (Elt F) :=
  maximumf (addf (Host.dotGeneral dot_S50000x512_S512x256_S50000x256_1_0_0_1_n_n none (concatenate S50000x512 1 [⟨S50000x256, h⟩, ⟨S50000x256, hn⟩] concatenates_S50000x256_S50000x256_S50000x512_d1) W) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The whole network on the argument arrays. -/
def net (x : (⟨S50000x128, .f32⟩ : BufTy).Contents (Elt F)) (src dst : (⟨S800000, .i32⟩ : BufTy).Contents (Elt F))
    (W1 : (⟨S256x256, .f32⟩ : BufTy).Contents (Elt F)) (b1 : (⟨S256, .f32⟩ : BufTy).Contents (Elt F))
    (W2 : (⟨S512x256, .f32⟩ : BufTy).Contents (Elt F)) (b2 : (⟨S256, .f32⟩ : BufTy).Contents (Elt F)) :
    (⟨S50000x256, .f32⟩ : BufTy).Contents (Elt F) :=
  layer2 (layer1 x (agg128 x src dst) W1 b1) (agg256 (layer1 x (agg128 x src dst) W1 b1) src dst) W2 b2

/-- The reference run's result term is the network of its argument arrays. -/
theorem res_eq (m : (ℓ : Loc nD τ sig) → Buf (Elt F) ℓ) (c : Dev nD) :
    Cert.ReferenceIdeal.ValueP.res_main_v47 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.ValueP.res_main_v47 net layer2 layer1 agg256 agg128 invDeg deg srcIdx
  rfl

end Cert.ReferenceIdeal.Layers

end
-- ==== Proof.KernelRun.lean ====
/-
  The idealized kernel's run with its result buffer read.

  @main is six segments: three stretches of host operations (the in-degrees and their reciprocals, the gather /
  scatter-add aggregation of the input features, the two halves of each weight matrix), the first layer's launch, a fourth
  stretch (the aggregation of the first layer's output) and the second layer's launch.  The launch theorem for a
  list of segments gives, at the end, every unscoped buffer at the contents the fold `W6` names; the frame keeps of that
  only the seven argument arrays.  Here the same run is stated with one more buffer read: the result `main_v43`, at
  `W6`'s contents there, beside the arguments unchanged.
-/
import proofs.«158275_j34333968564342_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; at the end the result buffer holds what the
    fold of the six segments leaves there, and the argument arrays are as launched. -/
theorem run_value : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.ValueRun

end
-- ==== Proof.LibDenseLayer.lean ====
/-
  Dense layers over the extended reals, read one output element at a time.

  A dense layer sends a row `h` (length `K`) to the row whose entry `n` is `∑ k, h k * W k n + b n`; a hidden layer
  then rectifies and masks it: entry `n` becomes `max y 0 * m n`.  This file states those row functions and proves, for
  any extents `R`, `K`, `N`, that the vector-level operations computing a layer on an `[R, K]` block —
  a matrix product into a zero accumulator (or a host dot product) over the plain `[R,K] × [K,N]` dimension numbers,
  a bias row broadcast over the rows, and either `select (y > 0) (y * m) 0` or `max y 0 * m` — read at entry `(p, q)`
  are the row function of row `p` of the operands, at `q`.  The two rectifier spellings agree on every extended real:
  for `y ≤ 0` both are `0` because `0 * m = 0` whatever `m` is.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.DenseLayer

/-! ## The row functions -/

/-- Entry `n` of a dense layer's output row: the input row against column `n` of the weights, plus the bias. -/
def dense {K N : ℕ} (h : Fin K → EReal) (W : Fin K → Fin N → EReal) (b : Fin N → EReal) : Fin N → EReal :=
  fun n => (∑ k : Fin K, h k * W k n) + b n

/-- Rectify, then scale by the mask entry. -/
def act (y m : EReal) : EReal := max y 0 * m

/-- A hidden layer's output row: dense, rectified, masked. -/
def layer {K N : ℕ} (h : Fin K → EReal) (W : Fin K → Fin N → EReal) (b : Fin N → EReal) (m : Fin N → EReal) :
    Fin N → EReal :=
  fun n => act (dense h W b n) (m n)

/-- Choosing `y * m` where `y > 0` and `0` elsewhere is `max y 0 * m`: where `y ≤ 0` the product `0 * m` is `0`. -/
theorem select_gt_eq_act (y m : EReal) : Scalar.select (Ideal.cmp .ogt y 0) (y * m) 0 = act y m := by
  unfold act Scalar.select Ideal.cmp
  by_cases h : (0 : EReal) < y
  · simp [h, max_eq_left h.le]
  · simp [h, max_eq_right (not_lt.mp h)]

/-! ## The plain matrix product read at an entry -/

/-- Over the plain dimension numbers the contraction index is the one coordinate `k`, the left operand is read at
    `(p, k)` and the right at `(k, q)`. -/
theorem plain_sum {M K N : ℕ} (a : (⟨2, ![M, K]⟩ : Shape).Idx → EReal) (b : (⟨2, ![K, N]⟩ : Shape).Idx → EReal)
    (p : Fin M) (q : Fin N) :
    ∑ k : (DotDims.plain M K N).contr.Idx,
        a ((DotDims.plain M K N).lhsIdx (ix2 p q) k) * b ((DotDims.plain M K N).rhsIdx (ix2 p q) k)
      = ∑ k : Fin K, a (ix2 p k) * b (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- A matrix product into the zero accumulator, over dimension numbers that are the plain ones, at entry `(p, q)`. -/
theorem matmul_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    matmul d prec a b (constant ⟨2, ![R, N]⟩ .f32 0x00000000#32) (ix2 p q) = ∑ k : Fin K, a (ix2 p k) * b (ix2 k q) := by
  subst hd
  show FloatOps.matmul _ prec a b (constant ⟨2, ![R, N]⟩ .f32 0x00000000#32) (ix2 p q) = _
  rw [Ideal.matmul_constant_zero_apply]
  exact plain_sum a b p q

/-- The host's dot product over the plain dimension numbers, at entry `(p, q)`. -/
theorem dotGeneral_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    Host.dotGeneral d prec a b (ix2 p q) = ∑ k : Fin K, a (ix2 p k) * b (ix2 k q) := by
  subst hd
  simp only [Host.dotGeneral]
  rw [Ideal.dotGeneral_apply]
  exact plain_sum a b p q

/-! ## The bias row -/

/-- A bias vector cast to one row and broadcast over `R` rows reads `b q` at `(p, q)`. -/
theorem bias_rows_apply {α : Type} {R N : ℕ} (b : (⟨1, ![N]⟩ : Shape).Idx → α)
    (sc : (⟨1, ![N]⟩ : Shape).ShapeCasts ⟨2, ![1, N]⟩) (bc : (⟨2, ![1, N]⟩ : Shape).Broadcasts ⟨2, ![R, N]⟩)
    (p : Fin R) (q : Fin N) :
    broadcastTo ⟨2, ![R, N]⟩ (shapeCast ⟨2, ![1, N]⟩ b sc) bc (ix2 p q) = b (ix1 q) :=
  (broadcastTo_1b_ab_apply _ bc p q).trans (shapeCast_a_1a_apply b sc 0 q)

/-- The host's spelling: the vector placed on axis 1 of a one-row array, that row placed on both axes of the
    `[R, N]` array. -/
theorem bias_rows_host_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  have hq : q.val = if N = 1 then 0 else q.val := by
    split
    · have := q.isLt; omega
    · rfl
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => exact hq
  · match a with
    | ⟨0, _⟩ => exact hq

/-! ## Rectifier and mask -/

/-- The kernel's spelling, at any entry: `y * m` where `y` exceeds the zero splat, the zero splat elsewhere. -/
theorem select_gt_apply {s : Shape} (y m : FVec Ideal s .f32) (i : s.Idx) :
    select (cmpf .ogt y (broadcast s (Scalar.ofBits .f32 0x00000000#32))) (mulf y m)
        (broadcast s (Scalar.ofBits .f32 0x00000000#32)) i = act (y i) (m i) := by
  show Scalar.select (Ideal.cmp .ogt (y i) (Ideal.ofBits .f32 0x00000000#32)) (y i * m i) (Ideal.ofBits .f32 0x00000000#32) = _
  rw [Ideal.ofBits_zero_f32]
  exact select_gt_eq_act _ _

/-- The host's spelling, at any entry: the maximum with the zero scalar broadcast to the shape, times the mask. -/
theorem relu_mask_host_apply {s : Shape} (y m : FVec Ideal s .f32) (h0 : (⟨0, ![]⟩ : Shape).BroadcastsInDim s ![])
    (i : s.Idx) :
    mulf (maximumf y (broadcastInDim s ![] h0 (constant (F := Ideal) ⟨0, ![]⟩ .f32 0x00000000#32))) m i = act (y i) (m i) := by
  show max (y i) (broadcastInDim s ![] h0 (constant (F := Ideal) ⟨0, ![]⟩ .f32 0x00000000#32) i) * m i = _
  rw [broadcastInDim_apply _ h0 _ i ix0 (fun a => a.elim0)]
  show max (y i) (Ideal.ofBits .f32 0x00000000#32) * m i = _
  rw [Ideal.ofBits_zero_f32]
  rfl

/-! ## Whole arrays, row by row

  The same layers on `[R, ·]` arrays: entry `(r, n)` of the output depends on row `r` of the row-indexed operands
  only, so a layer computed on a block of rows is that block of rows of the layer computed on the whole arrays. -/

/-- Row `r` of a two-axis array. -/
abbrev row {R C : ℕ} (A : (⟨2, ![R, C]⟩ : Shape).Idx → EReal) (r : Fin R) : Fin C → EReal := fun k => A (ix2 r k)
/-- A two-axis array as a function of its two coordinates. -/
abbrev mat {K N : ℕ} (W : (⟨2, ![K, N]⟩ : Shape).Idx → EReal) : Fin K → Fin N → EReal := fun k n => W (ix2 k n)
/-- A one-axis array as a function of its coordinate. -/
abbrev vec {N : ℕ} (b : (⟨1, ![N]⟩ : Shape).Idx → EReal) : Fin N → EReal := fun n => b (ix1 n)

/-- The dense layer on every row: entry `(r, n)` is `∑ k, H (r, k) * W (k, n) + b n`. -/
def denseArr {R K N : ℕ} (H : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => dense (row H ⟨(i 0).val, idx2_lt0 i⟩) (mat W) (vec b) ⟨(i 1).val, idx2_lt1 i⟩

/-- Rectifier and mask, entry by entry. -/
def actArr {s : Shape} (Y M : s.Idx → EReal) : s.Idx → EReal := fun i => act (Y i) (M i)

/-- A hidden layer on every row. -/
def layerArr {R K N : ℕ} (H : (⟨2, ![R, K]⟩ : Shape).Idx → EReal) (W : (⟨2, ![K, N]⟩ : Shape).Idx → EReal)
    (b : (⟨1, ![N]⟩ : Shape).Idx → EReal) (M : (⟨2, ![R, N]⟩ : Shape).Idx → EReal) :
    (⟨2, ![R, N]⟩ : Shape).Idx → EReal :=
  actArr (denseArr H W b) M

theorem denseArr_ix2 {R K N : ℕ} (H : (⟨2, ![R, K]⟩ : Shape).Idx → EReal) (W : (⟨2, ![K, N]⟩ : Shape).Idx → EReal)
    (b : (⟨1, ![N]⟩ : Shape).Idx → EReal) (p : Fin R) (q : Fin N) :
    denseArr H W b (ix2 p q) = dense (row H p) (mat W) (vec b) q := rfl

/-- The kernel's dense step as an array: product into the zero accumulator plus the broadcast bias row. -/
theorem kernel_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (sc : (⟨1, ![N]⟩ : Shape).ShapeCasts ⟨2, ![1, N]⟩) (bc : (⟨2, ![1, N]⟩ : Shape).Broadcasts ⟨2, ![R, N]⟩) :
    addf (matmul d prec a W (constant ⟨2, ![R, N]⟩ .f32 0x00000000#32))
        (broadcastTo ⟨2, ![R, N]⟩ (shapeCast ⟨2, ![1, N]⟩ b sc) bc) = denseArr a W b := by
  funext i
  obtain ⟨p, q, rfl⟩ : ∃ (p : Fin R) (q : Fin N), i = ix2 p q := ⟨i 0, i 1, eq_ix2 i⟩
  show matmul d prec a W (constant ⟨2, ![R, N]⟩ .f32 0x00000000#32) (ix2 p q)
      + broadcastTo ⟨2, ![R, N]⟩ (shapeCast ⟨2, ![1, N]⟩ b sc) bc (ix2 p q) = _
  rw [matmul_plain_apply d hd, bias_rows_apply]
  rfl

/-- The kernel's rectifier-and-mask as an array. -/
theorem kernel_act_eq {s : Shape} (Y M : FVec Ideal s .f32) :
    select (cmpf .ogt Y (broadcast s (Scalar.ofBits .f32 0x00000000#32))) (mulf Y M)
        (broadcast s (Scalar.ofBits .f32 0x00000000#32)) = actArr Y M :=
  funext (select_gt_apply Y M)

/-- The host's dense step as an array. -/
theorem host_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (Host.dotGeneral d prec a W) (broadcastInDim ⟨2, ![R, N]⟩ ![0, 1] h2 (broadcastInDim ⟨2, ![1, N]⟩ ![1] h1 b))
      = denseArr a W b := by
  funext i
  obtain ⟨p, q, rfl⟩ : ∃ (p : Fin R) (q : Fin N), i = ix2 p q := ⟨i 0, i 1, eq_ix2 i⟩
  show Host.dotGeneral d prec a W (ix2 p q)
      + broadcastInDim ⟨2, ![R, N]⟩ ![0, 1] h2 (broadcastInDim ⟨2, ![1, N]⟩ ![1] h1 b) (ix2 p q) = _
  rw [dotGeneral_plain_apply d hd, bias_rows_host_apply]
  rfl

/-- The host's rectifier-and-mask as an array. -/
theorem host_act_eq {s : Shape} (Y M : FVec Ideal s .f32) (h0 : (⟨0, ![]⟩ : Shape).BroadcastsInDim s ![]) :
    mulf (maximumf Y (broadcastInDim s ![] h0 (constant (F := Ideal) ⟨0, ![]⟩ .f32 0x00000000#32))) M = actArr Y M :=
  funext (relu_mask_host_apply Y M h0)

/-- A change of float format is the identity on extended reals. -/
theorem truncf_eq {s : Shape} {φ ψ : FTy} (v : FVec Ideal s φ) (h : ψ.bits < φ.bits) : truncf ψ v h = v := rfl

/-! ### Row locality -/

/-- Row `p` of `A` is row `r` of `A'`. -/
def RowEq {R R' C : ℕ} (A : (⟨2, ![R, C]⟩ : Shape).Idx → EReal) (A' : (⟨2, ![R', C]⟩ : Shape).Idx → EReal)
    (p : Fin R) (r : Fin R') : Prop :=
  ∀ k : Fin C, A (ix2 p k) = A' (ix2 r k)

theorem denseArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal} {p : Fin R} {r : Fin R'}
    (hH : RowEq H H' p r) (hW : W = W') (hb : b = b') : RowEq (denseArr H W b) (denseArr H' W' b') p r := by
  intro n
  subst hW hb
  have e : row H p = row H' r := funext hH
  show dense (row H p) (mat W) (vec b) n = dense (row H' r) (mat W) (vec b) n
  rw [e]

theorem actArr_rowEq {R R' C : ℕ} {Y M : (⟨2, ![R, C]⟩ : Shape).Idx → EReal} {Y' M' : (⟨2, ![R', C]⟩ : Shape).Idx → EReal}
    {p : Fin R} {r : Fin R'} (hY : RowEq Y Y' p r) (hM : RowEq M M' p r) : RowEq (actArr Y M) (actArr Y' M') p r := by
  intro n
  show act (Y (ix2 p n)) (M (ix2 p n)) = act (Y' (ix2 r n)) (M' (ix2 r n))
  rw [hY n, hM n]

theorem layerArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal}
    {M : (⟨2, ![R, N]⟩ : Shape).Idx → EReal} {M' : (⟨2, ![R', N]⟩ : Shape).Idx → EReal} {p : Fin R} {r : Fin R'}
    (hH : RowEq H H' p r) (hW : W = W') (hb : b = b') (hM : RowEq M M' p r) :
    RowEq (layerArr H W b M) (layerArr H' W' b' M') p r :=
  actArr_rowEq (denseArr_rowEq hH hW hb) hM

end Cert.DenseLayer

end
-- ==== Proof.LibGraphConv.lean ====
/-
  One graph-convolution layer over the extended reals, read one output entry at a time.

  A layer takes the node features `h` (one row per node) and the aggregated neighbour features `hn` (same shape) and
  returns, for node `r` and output channel `q`,

      max ( ∑ k, h (r, k) * Wa (k, q)  +  ∑ k, hn (r, k) * Wb (k, q)  +  b q ,  0 ).

  Two spellings compute it.  The blocked one multiplies a block of rows of `h` by `Wa` and the same rows of `hn` by
  `Wb`, each product into a zero accumulator, adds the two and the bias row, and rectifies.  The joined one lays `h` and
  `hn` side by side into rows of length `K + K`, multiplies by the whole weight matrix `W` (whose first `K` rows are `Wa`
  and last `K` rows `Wb`), adds the bias and rectifies.  They agree on every extended real, with no finiteness
  assumption: a sum over `K + K` indices is the sum over the first `K` plus the sum over the last `K`
  (addition of extended reals is commutative and associative), and over the first `K` columns the joined row is `h`'s,
  over the last `K` it is `hn`'s.
-/
import Idealize.ShloMosaic.PureOps.Ideal.Laws
import Idealize.ShloMosaic.Lib.ValueIdx
import Idealize.ShloMosaic.Lib.ValueLayout
import Idealize.ShloMosaic.Lib.Pipeline.Value
import proofs.«158275_j34333968564342_1_alg».proof.Proof.LibDenseLayer

noncomputable section

open Idealize.ShloMosaic Idealize.ShloMosaic.ValueIdx

namespace Cert.GraphConv

/-- The layer as one function of whole arrays: entry `(r, q)` is the rectified sum of the two products and the bias. -/
def conv {R K N : ℕ} (h hn : (⟨2, ![R, K]⟩ : Shape).Idx → EReal) (Wa Wb : (⟨2, ![K, N]⟩ : Shape).Idx → EReal)
    (b : (⟨2, ![1, N]⟩ : Shape).Idx → EReal) : (⟨2, ![R, N]⟩ : Shape).Idx → EReal :=
  fun i => max ((∑ k : Fin K, h (ix2 ⟨(i 0).val, idx2_lt0 i⟩ k) * Wa (ix2 k ⟨(i 1).val, idx2_lt1 i⟩))
      + (∑ k : Fin K, hn (ix2 ⟨(i 0).val, idx2_lt0 i⟩ k) * Wb (ix2 k ⟨(i 1).val, idx2_lt1 i⟩))
      + b (ix2 (0 : Fin 1) ⟨(i 1).val, idx2_lt1 i⟩)) 0

theorem conv_ix2 {R K N : ℕ} (h hn : (⟨2, ![R, K]⟩ : Shape).Idx → EReal) (Wa Wb : (⟨2, ![K, N]⟩ : Shape).Idx → EReal)
    (b : (⟨2, ![1, N]⟩ : Shape).Idx → EReal) (p : Fin R) (q : Fin N) :
    conv h hn Wa Wb b (ix2 p q)
      = max ((∑ k : Fin K, h (ix2 p k) * Wa (ix2 k q)) + (∑ k : Fin K, hn (ix2 p k) * Wb (ix2 k q))
          + b (ix2 (0 : Fin 1) q)) 0 := rfl

/-- Entry `(r, q)` of the layer reads row `r` of `h` and of `hn` only: a layer computed on a block of rows is that
    block of rows of the layer computed on the whole arrays. -/
theorem conv_rows {R R' K N : ℕ} (h hn : (⟨2, ![R, K]⟩ : Shape).Idx → EReal) (h' hn' : (⟨2, ![R', K]⟩ : Shape).Idx → EReal)
    (Wa Wb : (⟨2, ![K, N]⟩ : Shape).Idx → EReal) (b : (⟨2, ![1, N]⟩ : Shape).Idx → EReal) (p : Fin R) (r : Fin R')
    (q : Fin N) (e : ∀ k : Fin K, h (ix2 p k) = h' (ix2 r k)) (en : ∀ k : Fin K, hn (ix2 p k) = hn' (ix2 r k)) :
    conv h hn Wa Wb b (ix2 p q) = conv h' hn' Wa Wb b (ix2 r q) := by
  rw [conv_ix2, conv_ix2]
  simp only [e, en]

/-- The layer of operands read through index maps `e0 … e4`, at `j`, is the layer of the operands themselves at `i`,
    when the maps send row `j 0` to row `i 0` (for the two row-indexed operands), column `j 1` to column `i 1` (for the
    weights and the bias) and keep the contracted coordinate. -/
theorem conv_comp {R R' K N : ℕ} (A0 A1 : (⟨2, ![R', K]⟩ : Shape).Idx → EReal) (A2 A3 : (⟨2, ![K, N]⟩ : Shape).Idx → EReal)
    (A4 : (⟨2, ![1, N]⟩ : Shape).Idx → EReal)
    (e0 e1 : (⟨2, ![R, K]⟩ : Shape).Idx → (⟨2, ![R', K]⟩ : Shape).Idx)
    (e2 e3 : (⟨2, ![K, N]⟩ : Shape).Idx → (⟨2, ![K, N]⟩ : Shape).Idx)
    (e4 : (⟨2, ![1, N]⟩ : Shape).Idx → (⟨2, ![1, N]⟩ : Shape).Idx)
    (j : (⟨2, ![R, N]⟩ : Shape).Idx) (i : (⟨2, ![R', N]⟩ : Shape).Idx)
    (h0 : ∀ k : Fin K, e0 (ix2 ⟨(j 0).val, idx2_lt0 j⟩ k) = ix2 ⟨(i 0).val, idx2_lt0 i⟩ k)
    (h1 : ∀ k : Fin K, e1 (ix2 ⟨(j 0).val, idx2_lt0 j⟩ k) = ix2 ⟨(i 0).val, idx2_lt0 i⟩ k)
    (h2 : ∀ k : Fin K, e2 (ix2 k ⟨(j 1).val, idx2_lt1 j⟩) = ix2 k ⟨(i 1).val, idx2_lt1 i⟩)
    (h3 : ∀ k : Fin K, e3 (ix2 k ⟨(j 1).val, idx2_lt1 j⟩) = ix2 k ⟨(i 1).val, idx2_lt1 i⟩)
    (h4 : e4 (ix2 (0 : Fin 1) ⟨(j 1).val, idx2_lt1 j⟩) = ix2 (0 : Fin 1) ⟨(i 1).val, idx2_lt1 i⟩) :
    conv (fun y => A0 (e0 y)) (fun y => A1 (e1 y)) (fun y => A2 (e2 y)) (fun y => A3 (e3 y)) (fun y => A4 (e4 y)) j
      = conv A0 A1 A2 A3 A4 i := by
  unfold conv
  simp only [h0, h1, h2, h3, h4]

/-! ## The blocked spelling -/

/-- Two products into zero accumulators, added, plus the bias row broadcast over the rows, rectified against the zero
    splat: the layer of the operands. -/
theorem blocked_eq {R K N : ℕ} {φ₁ φ₂ : FTy} (d : DotDims ⟨2, ![R, K]⟩ ⟨2, ![K, N]⟩ ⟨2, ![R, N]⟩)
    (hd : d = DotDims.plain R K N) (prec : Option ContractPrecision)
    (x0 x1 : FVec Ideal ⟨2, ![R, K]⟩ φ₁) (x2 x3 : FVec Ideal ⟨2, ![K, N]⟩ φ₂) (x4 : FVec Ideal ⟨2, ![1, N]⟩ .f32)
    (bc : (⟨2, ![1, N]⟩ : Shape).Broadcasts ⟨2, ![R, N]⟩) :
    maximumf (addf (addf (matmul d prec x0 x2 (constant ⟨2, ![R, N]⟩ .f32 0x00000000#32))
          (matmul d prec x1 x3 (constant ⟨2, ![R, N]⟩ .f32 0x00000000#32))) (broadcastTo ⟨2, ![R, N]⟩ x4 bc))
        (broadcast ⟨2, ![R, N]⟩ (Scalar.ofBits .f32 0x00000000#32))
      = conv x0 x1 x2 x3 x4 := by
  funext i
  obtain ⟨p, q, rfl⟩ : ∃ (p : Fin R) (q : Fin N), i = ix2 p q := ⟨i 0, i 1, eq_ix2 i⟩
  show max (matmul d prec x0 x2 (constant ⟨2, ![R, N]⟩ .f32 0x00000000#32) (ix2 p q)
      + matmul d prec x1 x3 (constant ⟨2, ![R, N]⟩ .f32 0x00000000#32) (ix2 p q)
      + broadcastTo ⟨2, ![R, N]⟩ x4 bc (ix2 p q)) (Ideal.ofBits .f32 0x00000000#32) = _
  rw [Cert.DenseLayer.matmul_plain_apply d hd, Cert.DenseLayer.matmul_plain_apply d hd, broadcastTo_1b_ab_apply,
    Ideal.ofBits_zero_f32, conv_ix2]

/-! ## The joined spelling -/

/-- The joined row against the whole weight matrix splits at column `K`. -/
theorem joined_sum {R K K2 N : ℕ} (hK : K2 = K + K) (h hn : (⟨2, ![R, K]⟩ : Shape).Idx → EReal)
    (W : (⟨2, ![K2, N]⟩ : Shape).Idx → EReal)
    (hc : Shape.Concatenates [(⟨2, ![R, K]⟩ : Shape), (⟨2, ![R, K]⟩ : Shape)] ⟨2, ![R, K2]⟩ 1)
    (sa : (⟨2, ![K2, N]⟩ : Shape).Slices ![0, 0] ⟨2, ![K, N]⟩) (sb : (⟨2, ![K2, N]⟩ : Shape).Slices ![K, 0] ⟨2, ![K, N]⟩)
    (p : Fin R) (q : Fin N) :
    ∑ k : Fin K2, concatenate ⟨2, ![R, K2]⟩ 1 [⟨⟨2, ![R, K]⟩, h⟩, ⟨⟨2, ![R, K]⟩, hn⟩] hc (ix2 p k) * W (ix2 k q)
      = (∑ k : Fin K, h (ix2 p k) * extractStridedSlice ⟨2, ![K, N]⟩ ![0, 0] W sa (ix2 k q))
        + (∑ k : Fin K, hn (ix2 p k) * extractStridedSlice ⟨2, ![K, N]⟩ ![K, 0] W sb (ix2 k q)) := by
  subst hK
  rw [Fin.sum_univ_add]
  congr 1
  · refine Finset.sum_congr rfl fun k _ => ?_
    rw [concatenate_pair_apply_left (1 : Fin 2) h hn hc (ix2 p (Fin.castAdd K k)) rfl (ix2 p k)
        (fun b => by match b with | ⟨0, _⟩ => rfl | ⟨1, _⟩ => rfl),
      extractStridedSlice_apply ![0, 0] W sa (ix2 k q) (ix2 (Fin.castAdd K k) q)
        (fun a => by match a with | ⟨0, _⟩ => exact (Nat.zero_add _).symm | ⟨1, _⟩ => exact (Nat.zero_add _).symm)]
  · refine Finset.sum_congr rfl fun k _ => ?_
    rw [concatenate_pair_apply_right (1 : Fin 2) h hn hc (ix2 p (Fin.natAdd K k)) rfl rfl (ix2 p k)
        (fun b hb => by match b, hb with | ⟨0, _⟩, _ => rfl | ⟨1, _⟩, hb => exact absurd rfl hb)
        (by exact Nat.add_comm k.val K),
      extractStridedSlice_apply ![K, 0] W sb (ix2 k q) (ix2 (Fin.natAdd K k) q)
        (fun a => by match a with | ⟨0, _⟩ => rfl | ⟨1, _⟩ => exact (Nat.zero_add _).symm)]

/-- The joined spelling is the layer of `h`, `hn`, the two halves of the weight matrix and the bias as one row. -/
theorem joined_eq {R K K2 N : ℕ} (hK : K2 = K + K) (d : DotDims ⟨2, ![R, K2]⟩ ⟨2, ![K2, N]⟩ ⟨2, ![R, N]⟩)
    (hd : d = DotDims.plain R K2 N) (prec : Option ContractPrecision)
    (h hn : FVec Ideal ⟨2, ![R, K]⟩ .f32) (W : FVec Ideal ⟨2, ![K2, N]⟩ .f32) (b : FVec Ideal ⟨1, ![N]⟩ .f32)
    (hc : Shape.Concatenates [(⟨2, ![R, K]⟩ : Shape), (⟨2, ![R, K]⟩ : Shape)] ⟨2, ![R, K2]⟩ 1)
    (h1 : (⟨1, ![N]⟩ : Shape).BroadcastsInDim ⟨2, ![1, N]⟩ ![1])
    (h2 : (⟨2, ![1, N]⟩ : Shape).BroadcastsInDim ⟨2, ![R, N]⟩ ![0, 1])
    (h0 : (⟨0, ![]⟩ : Shape).BroadcastsInDim ⟨2, ![R, N]⟩ ![])
    (sa : (⟨2, ![K2, N]⟩ : Shape).Slices ![0, 0] ⟨2, ![K, N]⟩) (sb : (⟨2, ![K2, N]⟩ : Shape).Slices ![K, 0] ⟨2, ![K, N]⟩)
    (sc : (⟨1, ![N]⟩ : Shape).ShapeCasts ⟨2, ![1, N]⟩) :
    maximumf (addf (Host.dotGeneral d prec
            (concatenate ⟨2, ![R, K2]⟩ 1 [⟨⟨2, ![R, K]⟩, h⟩, ⟨⟨2, ![R, K]⟩, hn⟩] hc) W)
          (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32))
      = conv h hn (extractStridedSlice ⟨2, ![K, N]⟩ ![0, 0] W sa) (extractStridedSlice ⟨2, ![K, N]⟩ ![K, 0] W sb)
          (shapeCast ⟨2, ![1, N]⟩ b sc) := by
  funext i
  obtain ⟨p, q, rfl⟩ : ∃ (p : Fin R) (q : Fin N), i = ix2 p q := ⟨i 0, i 1, eq_ix2 i⟩
  show max (Host.dotGeneral d prec (concatenate ⟨2, ![R, K2]⟩ 1 [⟨⟨2, ![R, K]⟩, h⟩, ⟨⟨2, ![R, K]⟩, hn⟩] hc) W (ix2 p q)
      + broadcastInDim ⟨2, ![R, N]⟩ ![0, 1] h2 (broadcastInDim ⟨2, ![1, N]⟩ ![1] h1 b) (ix2 p q))
      (broadcastInDim ⟨2, ![R, N]⟩ ![] h0 (constant (F := Ideal) ⟨0, ![]⟩ .f32 0x00000000#32) (ix2 p q)) = _
  rw [Cert.DenseLayer.dotGeneral_plain_apply d hd, Cert.DenseLayer.bias_rows_host_apply,
    broadcastInDim_apply _ h0 _ (ix2 p q) ix0 (fun a => a.elim0), joined_sum hK h hn W hc sa sb p q, conv_ix2,
    shapeCast_a_1a_apply b sc 0 q]
  show max _ (Ideal.ofBits .f32 0x00000000#32) = _
  rw [Ideal.ofBits_zero_f32]

end Cert.GraphConv

end
-- ==== Proof.Blocks0.lean ====
/-
  Layer 1 of the network, from blocks of rows to the whole array.

  The launch walks 25 grid points; point `t` reads rows `2000 t … 2000 t + 1999` of the node features and of the
  aggregated neighbour features (every column), the two weight matrices and the bias row whole, and writes back rows
  `2000 t … 2000 t + 1999` of the result.  What it writes is the layer (`GraphConv.conv`) of the blocks it read; since
  entry `(r, q)` of the layer depends on row `r` of the two row-indexed operands only, that is block `t` of the layer of
  the whole arrays.  The 25 blocks of 2000 rows tile the 50000 rows, so after the last point the result array holds the
  layer of the arrays the launch found.
-/
import proofs.«158275_j34333968564342_1_alg».proof.Proof.Gen.KernelIdeal.Frame
import proofs.«158275_j34333968564342_1_alg».proof.Proof.LibGraphConv
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on the blocks it loads is the layer of those blocks: a change of float format is the identity
    on extended reals, and a cast of a vector to its own shape is the vector. -/
theorem pay_eq (x0 x1 : FVec Ideal S2000x128 .f32) (x2 x3 : FVec Ideal S128x256 .f32) (x4 : FVec Ideal S1x256 .f32) :
    k0_pay1 (F := Ideal) x0 x1 x2 x3 x4 = GraphConv.conv (R := 2000) (K := 128) (N := 256) x0 x1 x2 x3 x4 := by
  unfold k0_pay1
  show maximumf (addf (addf (matmul dot_S2000x128_S128x256_S2000x256_1_0_0_1_n_n none x0 (shapeCast S128x256 x2 _) (constant S2000x256 .f32 0x00000000#32))
        (matmul dot_S2000x128_S128x256_S2000x256_1_0_0_1_n_n none (shapeCast S2000x128 x1 _) (shapeCast S128x256 x3 _) (constant S2000x256 .f32 0x00000000#32)))
        (broadcastTo S2000x256 (shapeCast S1x256 x4 _) broadcasts_S1x256_S2000x256))
      (broadcast S2000x256 (Scalar.ofBits .f32 0x00000000#32)) = _
  simp only [shapeCast_self]
  exact GraphConv.blocked_eq dot_S2000x128_S128x256_S2000x256_1_0_0_1_n_n rfl none x0 x1 x2 x3 x4 broadcasts_S1x256_S2000x256

/-- The printed index maps, decided once over the grid: the two row-indexed inputs and the output sit at block `t` on
    the row axis and block 0 on the column axis; the weights and the bias at block 0 on both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer of the arrays as the launch finds them. -/
theorem flushed_eq (c : Dev nD) (t : Fin cfg0.N) :
    (dat0 V c).flushed 5 t = ((cfg0.win 5).blk t).view.read (Elt Ideal)
      (GraphConv.conv (R := 50000) (K := 128) (N := 256) (V c main_arg0) (V c main_v27) (V c main_v12) (V c main_v13) (V c main_v28)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  rw [pay_eq]
  obtain ⟨e00, e01, e10, e11, e20, e21, e30, e31, e40, e41, e50, e51⟩ := idx_facts t
  funext j
  show GraphConv.conv (R := 2000) (K := 128) (N := 256)
        (fun y => V c main_arg0 (((cfg0.win 0).blk t).view.emb y)) (fun y => V c main_v27 (((cfg0.win 1).blk t).view.emb y))
        (fun y => V c main_v12 (((cfg0.win 2).blk t).view.emb y)) (fun y => V c main_v13 (((cfg0.win 3).blk t).view.emb y))
        (fun y => V c main_v28 (((cfg0.win 4).blk t).view.emb y)) j
      = GraphConv.conv (R := 50000) (K := 128) (N := 256) (V c main_arg0) (V c main_v27) (V c main_v12) (V c main_v13) (V c main_v28)
          (((cfg0.win 5).blk t).view.emb j)
  have hj0 : (j 0).val < 2000 := (j 0).isLt
  have hj1 : (j 1).val < 256 := (j 1).isLt
  refine GraphConv.conv_comp (R := 2000) (R' := 50000) (K := 128) (N := 256) _ _ _ _ _ _ _ _ _ _ j _ ?_ ?_ ?_ ?_ ?_
  · intro k; funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · intro k; funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  · intro k; funext a; apply Fin.ext
    match a with
    | ⟨0, _⟩ => show win0_2.index t (0 : Fin 2) * 128 + 1 * k.val = k.val; omega
    | ⟨1, _⟩ => show win0_2.index t (1 : Fin 2) * 256 + 1 * (j 1).val = win0_5.index t (1 : Fin 2) * 256 + 1 * (j 1).val; omega
  · intro k; funext a; apply Fin.ext
    match a with
    | ⟨0, _⟩ => show win0_3.index t (0 : Fin 2) * 128 + 1 * k.val = k.val; omega
    | ⟨1, _⟩ => show win0_3.index t (1 : Fin 2) * 256 + 1 * (j 1).val = win0_5.index t (1 : Fin 2) * 256 + 1 * (j 1).val; omega
  · funext a; apply Fin.ext
    match a with
    | ⟨0, _⟩ => show win0_4.index t (0 : Fin 2) * 1 + 1 * 0 = 0; omega
    | ⟨1, _⟩ => show win0_4.index t (1 : Fin 2) * 256 + 1 * (j 1).val = win0_5.index t (1 : Fin 2) * 256 + 1 * (j 1).val; omega

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v29).slice (win0_5.rect t)).set ↔ _
  rw [View.set_slice_whole, Rect.mem_set_unit]
  exact Iff.rfl

/-- Row `r` lies in the block of point `r / 2000`: the 25 blocks tile the array. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; omega⟩
  obtain ⟨-, -, -, -, -, -, -, -, -, -, e50, e51⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE ARRAY after the launch: the layer of the arrays the launch found. -/
theorem final (c : Dev nD) :
    (dat0 V c).arrAt 5 cfg0.N
      = GraphConv.conv (R := 50000) (K := 128) (N := 256) (V c main_arg0) (V c main_v27) (V c main_v12) (V c main_v13) (V c main_v28) :=
  (dat0 V c).arrAt_eq_of_cover 5 _ (fun t _ => flushed_eq V c t) cover

end Cert.KernelIdeal.Blocks0

end
-- ==== Proof.Blocks1.lean ====
/-
  Layer 2 of the network, from blocks of rows to the whole array.

  The launch walks 25 grid points; point `t` reads rows `2000 t … 2000 t + 1999` of the node features and of the
  aggregated neighbour features (every column), the two weight matrices and the bias row whole, and writes back rows
  `2000 t … 2000 t + 1999` of the result.  What it writes is the layer (`GraphConv.conv`) of the blocks it read; since
  entry `(r, q)` of the layer depends on row `r` of the two row-indexed operands only, that is block `t` of the layer of
  the whole arrays.  The 25 blocks of 2000 rows tile the 50000 rows, so after the last point the result array holds the
  layer of the arrays the launch found.
-/
import proofs.«158275_j34333968564342_1_alg».proof.Proof.Gen.KernelIdeal.Frame
import proofs.«158275_j34333968564342_1_alg».proof.Proof.LibGraphConv
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on the blocks it loads is the layer of those blocks: a change of float format is the identity
    on extended reals, and a cast of a vector to its own shape is the vector. -/
theorem pay_eq (x0 x1 : FVec Ideal S2000x256 .f32) (x2 x3 : FVec Ideal S256x256 .f32) (x4 : FVec Ideal S1x256 .f32) :
    k1_pay1 (F := Ideal) x0 x1 x2 x3 x4 = GraphConv.conv (R := 2000) (K := 256) (N := 256) x0 x1 x2 x3 x4 := by
  unfold k1_pay1
  show maximumf (addf (addf (matmul dot_S2000x256_S256x256_S2000x256_1_0_0_1_n_n none (shapeCast S2000x256 x0 _) (shapeCast S256x256 x2 _) (constant S2000x256 .f32 0x00000000#32))
        (matmul dot_S2000x256_S256x256_S2000x256_1_0_0_1_n_n none (shapeCast S2000x256 x1 _) (shapeCast S256x256 x3 _) (constant S2000x256 .f32 0x00000000#32)))
        (broadcastTo S2000x256 (shapeCast S1x256 x4 _) broadcasts_S1x256_S2000x256))
      (broadcast S2000x256 (Scalar.ofBits .f32 0x00000000#32)) = _
  simp only [shapeCast_self]
  exact GraphConv.blocked_eq dot_S2000x256_S256x256_S2000x256_1_0_0_1_n_n rfl none x0 x1 x2 x3 x4 broadcasts_S1x256_S2000x256

/-- The printed index maps, decided once over the grid: the two row-indexed inputs and the output sit at block `t` on
    the row axis and block 0 on the column axis; the weights and the bias at block 0 on both. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the layer of the arrays as the launch finds them. -/
theorem flushed_eq (c : Dev nD) (t : Fin cfg1.N) :
    (dat1 V c).flushed 5 t = ((cfg1.win 5).blk t).view.read (Elt Ideal)
      (GraphConv.conv (R := 50000) (K := 256) (N := 256) (V c main_v29) (V c main_v41) (V c main_v14) (V c main_v15) (V c main_v42)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  rw [pay_eq]
  obtain ⟨e00, e01, e10, e11, e20, e21, e30, e31, e40, e41, e50, e51⟩ := idx_facts t
  funext j
  show GraphConv.conv (R := 2000) (K := 256) (N := 256)
        (fun y => V c main_v29 (((cfg1.win 0).blk t).view.emb y)) (fun y => V c main_v41 (((cfg1.win 1).blk t).view.emb y))
        (fun y => V c main_v14 (((cfg1.win 2).blk t).view.emb y)) (fun y => V c main_v15 (((cfg1.win 3).blk t).view.emb y))
        (fun y => V c main_v42 (((cfg1.win 4).blk t).view.emb y)) j
      = GraphConv.conv (R := 50000) (K := 256) (N := 256) (V c main_v29) (V c main_v41) (V c main_v14) (V c main_v15) (V c main_v42)
          (((cfg1.win 5).blk t).view.emb j)
  have hj0 : (j 0).val < 2000 := (j 0).isLt
  have hj1 : (j 1).val < 256 := (j 1).isLt
  refine GraphConv.conv_comp (R := 2000) (R' := 50000) (K := 256) (N := 256) _ _ _ _ _ _ _ _ _ _ j _ ?_ ?_ ?_ ?_ ?_
  · intro k; funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  · intro k; funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * k.val = k.val; omega
  · intro k; funext a; apply Fin.ext
    match a with
    | ⟨0, _⟩ => show win1_2.index t (0 : Fin 2) * 256 + 1 * k.val = k.val; omega
    | ⟨1, _⟩ => show win1_2.index t (1 : Fin 2) * 256 + 1 * (j 1).val = win1_5.index t (1 : Fin 2) * 256 + 1 * (j 1).val; omega
  · intro k; funext a; apply Fin.ext
    match a with
    | ⟨0, _⟩ => show win1_3.index t (0 : Fin 2) * 256 + 1 * k.val = k.val; omega
    | ⟨1, _⟩ => show win1_3.index t (1 : Fin 2) * 256 + 1 * (j 1).val = win1_5.index t (1 : Fin 2) * 256 + 1 * (j 1).val; omega
  · funext a; apply Fin.ext
    match a with
    | ⟨0, _⟩ => show win1_4.index t (0 : Fin 2) * 1 + 1 * 0 = 0; omega
    | ⟨1, _⟩ => show win1_4.index t (1 : Fin 2) * 256 + 1 * (j 1).val = win1_5.index t (1 : Fin 2) * 256 + 1 * (j 1).val; omega

/-- An index of the result array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v43).slice (win1_5.rect t)).set ↔ _
  rw [View.set_slice_whole, Rect.mem_set_unit]
  exact Iff.rfl

/-- Row `r` lies in the block of point `r / 2000`: the 25 blocks tile the array. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : grid1.N = 25 := N_1
  let t : Fin cfg1.N := ⟨(i 0).val / 2000, by show (i 0).val / 2000 < grid1.N; omega⟩
  obtain ⟨-, -, -, -, -, -, -, -, -, -, e50, e51⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE ARRAY after the launch: the layer of the arrays the launch found. -/
theorem final (c : Dev nD) :
    (dat1 V c).arrAt 5 cfg1.N
      = GraphConv.conv (R := 50000) (K := 256) (N := 256) (V c main_v29) (V c main_v41) (V c main_v14) (V c main_v15) (V c main_v42) :=
  (dat1 V c).arrAt_eq_of_cover 5 _ (fun t _ => flushed_eq V c t) cover

end Cert.KernelIdeal.Blocks1

end
-- ==== Proof.HostReads0.lean ====
/-
  What the first launch finds, and what passes through it untouched.

  Before the first launch the host computes the reciprocal in-degrees, the neighbours' mean of the input features, the two
  halves of the first weight matrix and the first bias as one row; it also slices the second weight matrix.  Each buffer
  the launch reads is, read back through those operations, one of the reference's own pieces (`Layers.agg128`,
  `Layers.invDeg`) or a slice or a cast of an argument.  The launch writes only its result array, so every other buffer
  is afterwards what it was.
-/
import proofs.«158275_j34333968564342_1_alg».proof.Proof.Gen.KernelIdeal.Frame
import proofs.«158275_j34333968564342_1_alg».proof.Proof.RefLayers
import Idealize.ShloMosaic.Lib.StableHlo.Run

set_option maxRecDepth 16384

noncomputable section

namespace Cert.KernelIdeal.HostReads0

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first launch's inputs -/

set_option maxHeartbeats 8000000 in
theorem x (c : Dev nD) : V3 m ρ c main_arg0 = (m ((c : Thread nD τ).loc main_arg0)) := by
  show StableHlo.after hostOps0_2 (StableHlo.after hostOps0_1 (StableHlo.after hostOps0 (W0 m ρ c))) (Proc.devRef .tc main_arg0) = _
  after_results_simp <;> rfl

set_option maxHeartbeats 8000000 in
theorem mean (c : Dev nD) : V3 m ρ c main_v27 = Cert.ReferenceIdeal.Layers.agg128 (m ((c : Thread nD τ).loc main_arg0)) (m ((c : Thread nD τ).loc main_arg1)) (m ((c : Thread nD τ).loc main_arg2)) := by
  show StableHlo.after hostOps0_2 (StableHlo.after hostOps0_1 (StableHlo.after hostOps0 (W0 m ρ c))) (Proc.devRef .tc main_v27) = _
  after_results_simp <;> rfl

set_option maxHeartbeats 8000000 in
theorem wa (c : Dev nD) : V3 m ρ c main_v12 = extractStridedSlice S128x256 ![0, 0] (m ((c : Thread nD τ).loc main_arg3)) slices_S256x256_S128x256_0_0 := by
  show StableHlo.after hostOps0_2 (StableHlo.after hostOps0_1 (StableHlo.after hostOps0 (W0 m ρ c))) (Proc.devRef .tc main_v12) = _
  after_results_simp <;> rfl

set_option maxHeartbeats 8000000 in
theorem wb (c : Dev nD) : V3 m ρ c main_v13 = extractStridedSlice S128x256 ![128, 0] (m ((c : Thread nD τ).loc main_arg3)) slices_S256x256_S128x256_128_0 := by
  show StableHlo.after hostOps0_2 (StableHlo.after hostOps0_1 (StableHlo.after hostOps0 (W0 m ρ c))) (Proc.devRef .tc main_v13) = _
  after_results_simp <;> rfl

set_option maxHeartbeats 8000000 in
theorem bias (c : Dev nD) : V3 m ρ c main_v28 = shapeCast S1x256 (m ((c : Thread nD τ).loc main_arg4)) shapeCasts_S256_S1x256 := by
  show StableHlo.after hostOps0_2 (StableHlo.after hostOps0_1 (StableHlo.after hostOps0 (W0 m ρ c))) (Proc.devRef .tc main_v28) = _
  after_results_simp <;> rfl

/-! ## What the second stretch of host operations will read, before the first launch -/

set_option maxHeartbeats 8000000 in
theorem src3 (c : Dev nD) : V3 m ρ c main_arg1 = (m ((c : Thread nD τ).loc main_arg1)) := by
  show StableHlo.after hostOps0_2 (StableHlo.after hostOps0_1 (StableHlo.after hostOps0 (W0 m ρ c))) (Proc.devRef .tc main_arg1) = _
  after_results_simp <;> rfl

set_option maxHeartbeats 8000000 in
theorem dst3 (c : Dev nD) : V3 m ρ c main_arg2 = (m ((c : Thread nD τ).loc main_arg2)) := by
  show StableHlo.after hostOps0_2 (StableHlo.after hostOps0_1 (StableHlo.after hostOps0 (W0 m ρ c))) (Proc.devRef .tc main_arg2) = _
  after_results_simp <;> rfl

set_option maxHeartbeats 8000000 in
theorem inv3 (c : Dev nD) : V3 m ρ c main_v11 = Cert.ReferenceIdeal.Layers.invDeg (m ((c : Thread nD τ).loc main_arg2)) := by
  show StableHlo.after hostOps0_2 (StableHlo.after hostOps0_1 (StableHlo.after hostOps0 (W0 m ρ c))) (Proc.devRef .tc main_v11) = _
  after_results_simp <;> rfl

set_option maxHeartbeats 8000000 in
theorem wa3 (c : Dev nD) : V3 m ρ c main_v14 = extractStridedSlice S256x256 ![0, 0] (m ((c : Thread nD τ).loc main_arg5)) slices_S512x256_S256x256_0_0 := by
  show StableHlo.after hostOps0_2 (StableHlo.after hostOps0_1 (StableHlo.after hostOps0 (W0 m ρ c))) (Proc.devRef .tc main_v14) = _
  after_results_simp <;> rfl

set_option maxHeartbeats 8000000 in
theorem wb3 (c : Dev nD) : V3 m ρ c main_v15 = extractStridedSlice S256x256 ![256, 0] (m ((c : Thread nD τ).loc main_arg5)) slices_S512x256_S256x256_256_0 := by
  show StableHlo.after hostOps0_2 (StableHlo.after hostOps0_1 (StableHlo.after hostOps0 (W0 m ρ c))) (Proc.devRef .tc main_v15) = _
  after_results_simp <;> rfl

set_option maxHeartbeats 8000000 in
theorem b3 (c : Dev nD) : V3 m ρ c main_arg6 = (m ((c : Thread nD τ).loc main_arg6)) := by
  show StableHlo.after hostOps0_2 (StableHlo.after hostOps0_1 (StableHlo.after hostOps0 (W0 m ρ c))) (Proc.devRef .tc main_arg6) = _
  after_results_simp <;> rfl

/-! ## The same buffers after the first launch: it writes none of them -/

theorem src4 (c : Dev nD) : W4 m ρ c (Proc.devRef .tc main_arg1) = (m ((c : Thread nD τ).loc main_arg1)) :=
  (W4_of_ne m ρ c main_arg1 (by decide)).trans (src3 m ρ c)

theorem dst4 (c : Dev nD) : W4 m ρ c (Proc.devRef .tc main_arg2) = (m ((c : Thread nD τ).loc main_arg2)) :=
  (W4_of_ne m ρ c main_arg2 (by decide)).trans (dst3 m ρ c)

theorem inv4 (c : Dev nD) : W4 m ρ c (Proc.devRef .tc main_v11) = Cert.ReferenceIdeal.Layers.invDeg (m ((c : Thread nD τ).loc main_arg2)) :=
  (W4_of_ne m ρ c main_v11 (by decide)).trans (inv3 m ρ c)

theorem wa4 (c : Dev nD) : W4 m ρ c (Proc.devRef .tc main_v14) = extractStridedSlice S256x256 ![0, 0] (m ((c : Thread nD τ).loc main_arg5)) slices_S512x256_S256x256_0_0 :=
  (W4_of_ne m ρ c main_v14 (by decide)).trans (wa3 m ρ c)

theorem wb4 (c : Dev nD) : W4 m ρ c (Proc.devRef .tc main_v15) = extractStridedSlice S256x256 ![256, 0] (m ((c : Thread nD τ).loc main_arg5)) slices_S512x256_S256x256_256_0 :=
  (W4_of_ne m ρ c main_v15 (by decide)).trans (wb3 m ρ c)

theorem b4 (c : Dev nD) : W4 m ρ c (Proc.devRef .tc main_arg6) = (m ((c : Thread nD τ).loc main_arg6)) :=
  (W4_of_ne m ρ c main_arg6 (by decide)).trans (b3 m ρ c)

end Cert.KernelIdeal.HostReads0

end
-- ==== Proof.HostReads1.lean ====
/-
  What the second launch finds.

  Between the two launches the host computes the neighbours' mean of the first layer's output — the same gather,
  scatter-add and scaling by the reciprocal in-degrees as before, now on 256 channels — and casts the second bias to one
  row.  Read back through those operations, each buffer the second launch reads is a piece of the reference's own
  (`Layers.agg256` of the first layer's output), a slice of the second weight matrix, or the bias as one row.
-/
import proofs.«158275_j34333968564342_1_alg».proof.Proof.Gen.KernelIdeal.Frame
import proofs.«158275_j34333968564342_1_alg».proof.Proof.RefLayers
import proofs.«158275_j34333968564342_1_alg».proof.Proof.HostReads0
import Idealize.ShloMosaic.Lib.StableHlo.Run

set_option maxRecDepth 16384

noncomputable section

namespace Cert.KernelIdeal.HostReads1

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first layer's output is not touched between the launches. -/
theorem feat (c : Dev nD) : V5 m ρ c main_v29 = W4 m ρ c (Proc.devRef .tc main_v29) := by
  show StableHlo.after hostOps1 (W4 m ρ c) (Proc.devRef .tc main_v29) = _
  after_results_simp

set_option maxHeartbeats 8000000 in
theorem mean (c : Dev nD) : V5 m ρ c main_v41 = Cert.ReferenceIdeal.Layers.agg256 (W4 m ρ c (Proc.devRef .tc main_v29)) (m ((c : Thread nD τ).loc main_arg1)) (m ((c : Thread nD τ).loc main_arg2)) := by
  show StableHlo.after hostOps1 (W4 m ρ c) (Proc.devRef .tc main_v41) = _
  after_results_simp
  rw [Cert.KernelIdeal.HostReads0.src4 m ρ c, Cert.KernelIdeal.HostReads0.dst4 m ρ c, Cert.KernelIdeal.HostReads0.inv4 m ρ c] <;> rfl

set_option maxHeartbeats 8000000 in
theorem wa (c : Dev nD) : V5 m ρ c main_v14 = extractStridedSlice S256x256 ![0, 0] (m ((c : Thread nD τ).loc main_arg5)) slices_S512x256_S256x256_0_0 := by
  show StableHlo.after hostOps1 (W4 m ρ c) (Proc.devRef .tc main_v14) = _
  after_results_simp
  rw [Cert.KernelIdeal.HostReads0.wa4 m ρ c] <;> rfl

set_option maxHeartbeats 8000000 in
theorem wb (c : Dev nD) : V5 m ρ c main_v15 = extractStridedSlice S256x256 ![256, 0] (m ((c : Thread nD τ).loc main_arg5)) slices_S512x256_S256x256_256_0 := by
  show StableHlo.after hostOps1 (W4 m ρ c) (Proc.devRef .tc main_v15) = _
  after_results_simp
  rw [Cert.KernelIdeal.HostReads0.wb4 m ρ c] <;> rfl

set_option maxHeartbeats 8000000 in
theorem bias (c : Dev nD) : V5 m ρ c main_v42 = shapeCast S1x256 (m ((c : Thread nD τ).loc main_arg6)) shapeCasts_S256_S1x256 := by
  show StableHlo.after hostOps1 (W4 m ρ c) (Proc.devRef .tc main_v42) = _
  after_results_simp
  rw [Cert.KernelIdeal.HostReads0.b4 m ρ c] <;> rfl

end Cert.KernelIdeal.HostReads1

end
-- ==== Proof.RefBridge.lean ====
/-
  The reference's layers are the blocked layers of the two halves of the weight matrix.

  `Layers.layer1` and `Layers.layer2` join the features and the neighbours' mean side by side and multiply by the whole
  weight matrix; the kernel multiplies the features by the upper half of the matrix and the neighbours' mean by the lower
  half and adds.  `GraphConv.joined_eq` is the law (a sum over `K + K` indices split at `K`); here it is instantiated at
  the two layers' extents, 128 + 128 and 256 + 256.
-/
import proofs.«158275_j34333968564342_1_alg».proof.Proof.RefLayers
import proofs.«158275_j34333968564342_1_alg».proof.Proof.LibGraphConv

noncomputable section

namespace Cert.ReferenceIdeal.Layers

open Cert.ReferenceIdeal Cert.ReferenceIdeal.Gen Idealize.ShloMosaic Idealize.ShloMosaic.TcCoe Idealize.SL.Sem

theorem layer1_eq (h hn : FVec Ideal S50000x128 .f32) (W : FVec Ideal S256x256 .f32) (b : FVec Ideal S256 .f32)
    (sa : (⟨2, ![256, 256]⟩ : Shape).Slices ![0, 0] ⟨2, ![128, 256]⟩)
    (sb : (⟨2, ![256, 256]⟩ : Shape).Slices ![128, 0] ⟨2, ![128, 256]⟩)
    (sc : (⟨1, ![256]⟩ : Shape).ShapeCasts ⟨2, ![1, 256]⟩) :
    layer1 (F := Ideal) h hn W b
      = Cert.GraphConv.conv (R := 50000) (K := 128) (N := 256) h hn
          (extractStridedSlice ⟨2, ![128, 256]⟩ ![0, 0] W sa) (extractStridedSlice ⟨2, ![128, 256]⟩ ![128, 0] W sb)
          (shapeCast ⟨2, ![1, 256]⟩ b sc) := by
  unfold layer1
  exact Cert.GraphConv.joined_eq (R := 50000) (K := 128) (K2 := 256) (N := 256) rfl
    dot_S50000x256_S256x256_S50000x256_1_0_0_1_n_n rfl none h hn W b
    concatenates_S50000x128_S50000x128_S50000x256_d1 bcast_S256_S1x256_1 bcast_S1x256_S50000x256_0_1 bcast_S_S50000x256
    sa sb sc

theorem layer2_eq (h hn : FVec Ideal S50000x256 .f32) (W : FVec Ideal S512x256 .f32) (b : FVec Ideal S256 .f32)
    (sa : (⟨2, ![512, 256]⟩ : Shape).Slices ![0, 0] ⟨2, ![256, 256]⟩)
    (sb : (⟨2, ![512, 256]⟩ : Shape).Slices ![256, 0] ⟨2, ![256, 256]⟩)
    (sc : (⟨1, ![256]⟩ : Shape).ShapeCasts ⟨2, ![1, 256]⟩) :
    layer2 (F := Ideal) h hn W b
      = Cert.GraphConv.conv (R := 50000) (K := 256) (N := 256) h hn
          (extractStridedSlice ⟨2, ![256, 256]⟩ ![0, 0] W sa) (extractStridedSlice ⟨2, ![256, 256]⟩ ![256, 0] W sb)
          (shapeCast ⟨2, ![1, 256]⟩ b sc) := by
  unfold layer2
  exact Cert.GraphConv.joined_eq (R := 50000) (K := 256) (K2 := 512) (N := 256) rfl
    dot_S50000x512_S512x256_S50000x256_1_0_0_1_n_n rfl none h hn W b
    concatenates_S50000x256_S50000x256_S50000x512_d1 bcast_S256_S1x256_1 bcast_S1x256_S50000x256_0_1 bcast_S_S50000x256
    sa sb sc

end Cert.ReferenceIdeal.Layers

end
-- ==== Proof.KernelValue.lean ====
/-
  The idealized kernel's result is the reference's network of the argument arrays.

  After the run the result buffer holds what the second launch wrote: the blocked layer of the arrays that launch
  found (`Blocks1.final`), which are the first layer's output, its neighbours' mean, the two halves of the second weight
  matrix and the second bias (`HostReads1`).  The first layer's output is what the first launch wrote: the blocked layer of
  the input features, their neighbours' mean, the halves of the first weight matrix and the first bias (`Blocks0.final`,
  `HostReads0`).  A blocked layer of the two halves of a weight matrix is the reference's joined layer of the whole matrix
  (`Layers.layer1_eq`, `Layers.layer2_eq`), so the result is `Layers.net` of the arguments.
-/
import proofs.«158275_j34333968564342_1_alg».proof.Proof.KernelRun
import proofs.«158275_j34333968564342_1_alg».proof.Proof.Blocks0
import proofs.«158275_j34333968564342_1_alg».proof.Proof.Blocks1
import proofs.«158275_j34333968564342_1_alg».proof.Proof.HostReads0
import proofs.«158275_j34333968564342_1_alg».proof.Proof.HostReads1
import proofs.«158275_j34333968564342_1_alg».proof.Proof.RefBridge

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first layer's output array, after the first launch. -/
theorem layer1_out (c : Dev nD) :
    W4 m ρ c (Proc.devRef .tc main_v29)
      = Cert.ReferenceIdeal.Layers.layer1 (m ((c : Thread nD τ).loc main_arg0)) (Cert.ReferenceIdeal.Layers.agg128 (m ((c : Thread nD τ).loc main_arg0)) (m ((c : Thread nD τ).loc main_arg1)) (m ((c : Thread nD τ).loc main_arg2)))
          (m ((c : Thread nD τ).loc main_arg3)) (m ((c : Thread nD τ).loc main_arg4)) := by
  refine (W4_arr m ρ c 5).trans ?_
  rw [Blocks0.final (V3 m ρ) c, HostReads0.x m ρ c, HostReads0.mean m ρ c, HostReads0.wa m ρ c, HostReads0.wb m ρ c,
    HostReads0.bias m ρ c]
  exact (Cert.ReferenceIdeal.Layers.layer1_eq _ _ _ _ _ _ _).symm

/-- The result array, after the second launch. -/
theorem result (c : Dev nD) :
    W6 m ρ c (Proc.devRef .tc main_v43)
      = Cert.ReferenceIdeal.Layers.net (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) := by
  refine (W6_arr m ρ c 5).trans ?_
  rw [Blocks1.final (V5 m ρ) c, HostReads1.feat m ρ c, HostReads1.mean m ρ c, HostReads1.wa m ρ c, HostReads1.wb m ρ c,
    HostReads1.bias m ρ c, layer1_out m ρ c]
  exact (Cert.ReferenceIdeal.Layers.layer2_eq _ _ _ _ _ _ _).symm

/-- Every weakly fair execution of the idealized kernel terminates, nothing faulting, with the result buffer at the
    network of the argument arrays and the arguments unchanged. -/
theorem run : θ_run defs (onTc (τ := τ) (main (F := Ideal))) ⟨m, fun _ => 0, ρ⟩ (fun r => ∀ c : Dev nD,
      r.2.mem ((c.tc : Thread nD τ).loc main_v43)
        = Cert.ReferenceIdeal.Layers.net (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (ValueRun.run_value m ρ)

end Cert.KernelIdeal.Value

end
-- ==== Proof.lean ====
/-
  A two-layer graph network with mean aggregation: the kernel against its reference, over the extended reals.

  Both programs compute, on the host, the in-degree of every node, its reciprocal where positive (zero elsewhere), and
  for each layer the mean of the neighbours' features (gather the source rows, scatter-add them at the destinations,
  scale by the reciprocal in-degree).  They differ in the dense part of a layer.  The reference joins a node's features
  `h` and the neighbours' mean `hn` side by side, multiplies by the weight matrix `W` (`2 d` rows), adds the bias and
  rectifies.  The kernel tiles the 50000 nodes into 25 blocks of 2000 rows and, per block, multiplies `h` by the upper `d`
  rows of `W` and `hn` by the lower `d` rows, adds the two products and the bias, and rectifies.  Entry `(r, q)` of either is

      max ( ∑_{k < d} h (r, k) W (k, q)  +  ∑_{k < d} hn (r, k) W (d + k, q)  +  b q ,  0 ):

  a sum over `2 d` indices is the sum over the first `d` plus the sum over the last `d`, which holds in any commutative
  monoid, so on the extended reals with no finiteness assumption (the precondition is not used).  A change of float
  format is the identity at the ideal values, and a product into a zero accumulator is the plain sum of products.

  The modules: `LibGraphConv` states the layer entry by entry and proves the two spellings equal it; `Blocks0` / `Blocks1`
  carry a launch's 25 row blocks to the whole result array; `KernelRun` is the kernel's run with the result buffer read;
  `HostReads0` / `HostReads1` read the host operations around the launches back to the arguments; `KernelValue` puts these
  together; `RefRun` is the reference's run, `RefLayers` groups its result term into layers and `RefBridge` instantiates the
  law at 128 + 128 and 256 + 256.  The idealization rewrote nothing, so `preserves` is `True`.
-/
import proofs.«158275_j34333968564342_1_alg».proof.Defs
import proofs.«158275_j34333968564342_1_alg».proof.Proof.Gen.Kernel
import proofs.«158275_j34333968564342_1_alg».proof.Proof.Gen.Kernel.Skeleton
import proofs.«158275_j34333968564342_1_alg».proof.Proof.Gen.Kernel.Launch
import proofs.«158275_j34333968564342_1_alg».proof.Proof.Gen.Kernel.Points
import proofs.«158275_j34333968564342_1_alg».proof.Proof.Gen.Kernel.Frame
import proofs.«158275_j34333968564342_1_alg».proof.Proof.Gen.KernelIdeal
import proofs.«158275_j34333968564342_1_alg».proof.Proof.Gen.KernelIdeal.Skeleton
import proofs.«158275_j34333968564342_1_alg».proof.Proof.Gen.KernelIdeal.Launch
import proofs.«158275_j34333968564342_1_alg».proof.Proof.Gen.KernelIdeal.Points
import proofs.«158275_j34333968564342_1_alg».proof.Proof.Gen.KernelIdeal.Frame
import proofs.«158275_j34333968564342_1_alg».proof.Proof.Gen.ReferenceIdeal
import proofs.«158275_j34333968564342_1_alg».proof.Proof.Gen.Pre_finite_inputs
import proofs.«158275_j34333968564342_1_alg».proof.Proof.RefRun
import proofs.«158275_j34333968564342_1_alg».proof.Proof.RefLayers
import proofs.«158275_j34333968564342_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result at the network of the argument arrays: the kernel by `KernelValue`, the
    reference by its run and the grouping of its result term; the arguments agree. -/
theorem algebraic : Cert.algebraic_KernelIdeal_ReferenceIdeal := by
  intro m ρ m' ρ' _ hagree
  refine ⟨fun c => Cert.ReferenceIdeal.Layers.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6⟩ := hagree c
  rw [Cert.ReferenceIdeal.Layers.res_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
